-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1000 : S_.BroadcastsInDim S4096x1000 (![] : Fin 0 → Fin S4096x1000.rank)
  reducesTo_S4096x1000_S_d0_1 : S4096x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S4096x1000 .f32) (main_arg6 : FVec F S1000 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1000 .f32 := Host.absf main_arg5
  let main_cst_8 : FVec F S_ .f32 := constant S_ .f32 0x7F800000#32
  let main_v25 : FVec F S4096x1000 .f32 := broadcastInDim S4096x1000 ![] bcast_S_S4096x1000 main_cst_8
  let main_v26 : IVec S4096x1000 1 := cmpf .olt main_v24 main_v25
  let main_c_9 : IVec S_ 1 := constantI S_ 1 1#1
  let main_v27 : IVec S_ 1 := (fun x v => Host.reduce IntOp.andi x v reducesTo_S4096x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S4096x1024 .f32) (main_arg1 : FVec F S1024x4096 .f32) (main_arg2 : FVec F S4096 .f32) (main_arg3 : FVec F S4096x4096 .f32) (main_arg4 : FVec F S4096 .f32) (main_arg5 : FVec F S4096x1000 .f32) (main_arg6 : FVec F S1000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S1024x1024 : Shape := ⟨2, ![1024, 1024]⟩
abbrev S1x1024 : Shape := ⟨2, ![1, 1024]⟩
abbrev S1x1000 : Shape := ⟨2, ![1, 1000]⟩
abbrev S1024x1000 : Shape := ⟨2, ![1024, 1000]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S1x4096, .f32⟩
  | .hbm, ⟨8, _⟩ => ⟨S4096x4096, .bf16⟩
  | .hbm, ⟨9, _⟩ => ⟨S1x4096, .f32⟩
  | .hbm, ⟨10, _⟩ => ⟨S4096x4096, .bf16⟩
  | .hbm, ⟨11, _⟩ => ⟨S1x1000, .f32⟩
  | .hbm, ⟨12, _⟩ => ⟨S4096x1000, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .f32⟩
  | .local _ .vmem, ⟨3, _⟩ => ⟨S1x4096, .f32⟩
  | .local _ .vmem, ⟨4, _⟩ => ⟨S1024x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S4096x1024, .f32⟩
  | .local _ .vmem, ⟨9, _⟩ => ⟨S4096x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x4096, .bf16⟩
  | .local _ .vmem, ⟨15, _⟩ => ⟨S1024x4096, .bf16⟩
  | .local _ .vmem, ⟨16, _⟩ => ⟨S4096x1000, .f32⟩
  | .local _ .vmem, ⟨17, _⟩ => ⟨S1x1000, .f32⟩
  | .local _ .vmem, ⟨18, _⟩ => ⟨S1024x1000, .f32⟩
  | .local _ .vmem, ⟨19, _⟩ => ⟨S1024x1000, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S4096x1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S1024x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  packedbf16_S1024x4096_S1024x4096_0_0 : (Rect.unit (s := S1024x4096) ![0, 0] S1024x4096.size inb_S1024x4096_S1024x4096_0_0).PackedRows (EltTy.packing .bf16)
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1000_S1x1000 : S1000.ShapeCasts S1x1000
  inb_S4096x1000_S4096x1000_0_0 : ∀ a, (![0, 0] : Fin 2 → Nat) a + S4096x1000.size a ≤ S4096x1000.size a
  h_S4096x1000 : 0 < S4096x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x1024_S1024x4096_S1024x4096_1_0_0_1_n_n_wf : DotDims.WF S1024x1024 S1024x4096 S1024x4096 [1] [0] [0] [1] [] []
  dot_S1024x4096_S4096x1024_S1024x1024_1_0_0_1_n_n_wf : DotDims.WF S1024x4096 S4096x1024 S1024x1024 [1] [0] [0] [1] [] []
  dot_S1024x4096_S4096x1000_S1024x1000_1_0_0_1_n_n_wf : DotDims.WF S1024x4096 S4096x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .bf16 = 32 ∨ (Rect.block (s := S4096x4096) S1024x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .f32 = 32 ∨ (Rect.block (s := S4096x4096) S4096x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .bf16 = 32 ∨ (Rect.block (s := S4096x4096) S1024x4096.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S4096x1000.size a ≤ S4096x1000.size a
  hwx2_1 : ∀ i : grid2.Coords, EltTy.bits .f32 = 32 ∨ (Rect.block (s := S4096x1000) S4096x1000.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1000.size a ≤ S4096x1000.size a
  hwx2_3 : ∀ i : grid2.Coords, EltTy.bits .f32 = 32 ∨ (Rect.block (s := S4096x1000) S1024x1000.size (cc2_transform_3 i) (hinb2_3 i)).WholeWords (EltTy.packing .f32)

variable [Facts₀]

def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x4096_S4096x1000_S1024x1000_1_0_0_1_n_n : DotDims S1024x4096 S4096x1000 S1024x1000 where
  lhsContracting := [1]
  rhsContracting := [0]
  lhsNonContracting := [0]
  rhsNonContracting := [1]
  lhsBatch := []
  rhsBatch := []
  wf := dot_S1024x4096_S4096x1000_S1024x1000_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S4096x1000.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1000.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S_ : Shape := ⟨0, ![]⟩
abbrev S1x1000 : Shape := ⟨2, ![1, 1000]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1000, .f32⟩
  | .hbm, ⟨22, _⟩ => ⟨S1x1000, .f32⟩
  | .hbm, ⟨23, _⟩ => ⟨S4096x1000, .f32⟩
  | .hbm, ⟨24, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«157118_g84026740179090_cont_9to1_m_1088_18_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibLayers.lean ====
/-
  Fully connected layers on the extended reals.

  A layer takes an [M, K] array l, a [K, N] weight matrix W and N biases b to the [M, N] array whose entry (p, q) is
  the sum over k of l (p, k) · W (k, q), plus b q. The rectifier replaces every entry by the larger of the entry and the
  number the f32 zero word encodes. A three-layer perceptron rectifies after its first two layers and not after the
  third. Nothing here asks the entries to be finite: the extended reals' sum and product are total. Stated for any
  extents, over index functions into the extended reals, so that a kernel's and a host program's layers are compared as
  the same function.
-/
import Idealize.ShloMosaic.PureOps.Ideal
import Idealize.ShloMosaic.Lib.ValueIdx

noncomputable section

namespace Cert.LibLayers

open Idealize.ShloMosaic Idealize.ShloMosaic.ValueIdx
open scoped BigOperators

/-- One layer before its activation: entry (p, q) is the sum over k of l (p, k) · W (k, q), plus the q-th bias. -/
def dense {M K N : ℕ} (l : (⟨2, ![M, K]⟩ : Shape).Idx → EReal) (W : (⟨2, ![K, N]⟩ : Shape).Idx → EReal) (b : Fin N → EReal) :
    (⟨2, ![M, N]⟩ : Shape).Idx → EReal :=
  fun j => (∑ k : Fin K, l (ix2 (j 0) k) * W (ix2 k (j 1))) + b (j 1)

/-- The layer at explicit coordinates. -/
theorem dense_apply {M K N : ℕ} (l : (⟨2, ![M, K]⟩ : Shape).Idx → EReal) (W : (⟨2, ![K, N]⟩ : Shape).Idx → EReal) (b : Fin N → EReal)
    (p : Fin M) (q : Fin N) : dense l W b (ix2 p q) = (∑ k : Fin K, l (ix2 p k) * W (ix2 k q)) + b q := rfl

/-- The rectifier, entry by entry: the larger of the entry and the number the f32 zero word encodes. -/
def relu {s : Shape} (f : s.Idx → EReal) : s.Idx → EReal := fun j => max (f j) (Ideal.ofBits .f32 0x00000000#32)

/-- The rectifier at an index. -/
theorem relu_apply {s : Shape} (f : s.Idx → EReal) (j : s.Idx) : relu f j = max (f j) (Ideal.ofBits .f32 0x00000000#32) := rfl

/-- Three layers, rectified after the first and after the second. -/
def mlp {M K1 K2 K3 N : ℕ} (x : (⟨2, ![M, K1]⟩ : Shape).Idx → EReal)
    (W1 : (⟨2, ![K1, K2]⟩ : Shape).Idx → EReal) (b1 : Fin K2 → EReal)
    (W2 : (⟨2, ![K2, K3]⟩ : Shape).Idx → EReal) (b2 : Fin K3 → EReal)
    (W3 : (⟨2, ![K3, N]⟩ : Shape).Idx → EReal) (b3 : Fin N → EReal) : (⟨2, ![M, N]⟩ : Shape).Idx → EReal :=
  dense (relu (dense (relu (dense x W1 b1)) W2 b2)) W3 b3

end Cert.LibLayers

end
-- ==== Proof.LibHostLayer.lean ====
/-
  Layers of a host program as whole arrays, on the extended reals.

  A product of the activations with a weight matrix (contracting the activations' columns with the weights' rows, no
  batch axis), plus a bias vector laid out as a row and repeated over the rows, is the layer of LibLayers.lean with the
  bias vector read at its one coordinate; followed by a maximum with a repeated zero it is the rectified layer. Stated
  for any extents, as equalities of whole arrays, so that a composed term of several layers is rewritten layer by layer.
-/
import proofs.«157118_g84026740179090_cont_9to1_m_1088_18_alg».proof.Proof.LibHostDense
import proofs.«157118_g84026740179090_cont_9to1_m_1088_18_alg».proof.Proof.LibLayers

noncomputable section

namespace Cert.LibHostLayer

open Idealize.ShloMosaic Idealize.ShloMosaic.ValueIdx Cert.LibLayers Cert.LibHostDense
open scoped BigOperators

/-- A bias vector as a function of its one coordinate. -/
abbrev vecAt {N : ℕ} (b : (⟨1, ![N]⟩ : Shape).Idx → EReal) : Fin N → EReal := fun q => b (ix1 q)

/-- A rectified layer of a host program, as a whole array. -/
theorem hostLayer_relu {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = relu (dense l W (vecAt b)) := by
  funext j
  obtain ⟨p, q, rfl⟩ : ∃ (p : Fin M) (q : Fin N), j = ix2 p q := ⟨j 0, j 1, eq_ix2 j⟩
  exact hostDenseMax_apply d hlc hrc hlb hrb hln hrn prec l W b h1 h2 h0 _ p q

/-- A layer of a host program with no activation, as a whole array. -/
theorem hostLayer_plain {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral d prec l W)
        (broadcastInDim ⟨2, ![M, N]⟩ ![0, 1] h2 (broadcastInDim ⟨2, ![1, N]⟩ ![1] h1 b))
      = dense l W (vecAt b) := by
  funext j
  obtain ⟨p, q, rfl⟩ : ∃ (p : Fin M) (q : Fin N), j = ix2 p q := ⟨j 0, j 1, eq_ix2 j⟩
  rw [addf_apply, hostDot_plain_apply d hlc hrc hlb hrb hln hrn, bcastRows_apply, bcastRow_apply]
  rfl

end Cert.LibHostLayer

end
-- ==== Proof.RefValue.lean ====
/-
  The reference program's result is the three-layer perceptron of its arguments.

  Each of the reference's first two layers is a product of the activations with a weight matrix, a bias vector laid
  out as a row and repeated over the rows, and a maximum with a repeated zero; the third is the same without the
  maximum. Each is a layer of LibLayers.lean as a whole array (LibHostLayer.lean), so the composed term is rewritten
  layer by layer, innermost first.
-/
import proofs.«157118_g84026740179090_cont_9to1_m_1088_18_alg».proof.Proof.Gen.ReferenceIdeal.Run
import proofs.«157118_g84026740179090_cont_9to1_m_1088_18_alg».proof.Proof.LibHostLayer

noncomputable section

namespace Cert.RefLayers

open Idealize.ShloMosaic Idealize.ShloMosaic.ValueIdx Cert.LibLayers Cert.LibHostLayer
open scoped BigOperators

section
open Cert.ReferenceIdeal Cert.ReferenceIdeal.Facts₀ Cert.ReferenceIdeal.Facts
variable [Cert.ReferenceIdeal.Facts]

/-- The reference's composed term is the perceptron of its seven arguments. -/
theorem result_eq (x : FVec Ideal S4096x1024 .f32) (W1 : FVec Ideal S1024x4096 .f32) (b1 : FVec Ideal S4096 .f32)
    (W2 : FVec Ideal S4096x4096 .f32) (b2 : FVec Ideal S4096 .f32) (W3 : FVec Ideal S4096x1000 .f32) (b3 : FVec Ideal S1000 .f32) :
    addf (Host.dotGeneral dot_S4096x4096_S4096x1000_S4096x1000_1_0_0_1_n_n none (maximumf (addf (Host.dotGeneral dot_S4096x4096_S4096x4096_S4096x4096_1_0_0_1_n_n none (maximumf (addf (Host.dotGeneral dot_S4096x1024_S1024x4096_S4096x4096_1_0_0_1_n_n none x W1) (broadcastInDim S4096x4096 ![0, 1] bcast_S1x4096_S4096x4096_0_1 (broadcastInDim S1x4096 ![1] bcast_S4096_S1x4096_1 b1))) (broadcastInDim S4096x4096 ![] bcast_S_S4096x4096 (constant S_ .f32 0x00000000#32))) W2) (broadcastInDim S4096x4096 ![0, 1] bcast_S1x4096_S4096x4096_0_1 (broadcastInDim S1x4096 ![1] bcast_S4096_S1x4096_1 b2))) (broadcastInDim S4096x4096 ![] bcast_S_S4096x4096 (constant S_ .f32 0x00000000#32))) W3) (broadcastInDim S4096x1000 ![0, 1] bcast_S1x1000_S4096x1000_0_1 (broadcastInDim S1x1000 ![1] bcast_S1000_S1x1000_1 b3))
      = mlp x W1 (vecAt b1) W2 (vecAt b2) W3 (vecAt b3) := by
  rw [hostLayer_relu dot_S4096x1024_S1024x4096_S4096x4096_1_0_0_1_n_n rfl rfl rfl rfl rfl rfl none x W1 b1,
    hostLayer_relu dot_S4096x4096_S4096x4096_S4096x4096_1_0_0_1_n_n rfl rfl rfl rfl rfl rfl none _ W2 b2,
    hostLayer_plain dot_S4096x4096_S4096x1000_S4096x1000_1_0_0_1_n_n rfl rfl rfl rfl rfl rfl none _ W3 b3]
  rfl

end

end Cert.RefLayers

end
-- ==== Proof.LibBlockLayer.lean ====
/-
  A layer as a kernel body computes it on one block.

  The body multiplies a block of activations by a block of the weight matrix into a zero accumulator, adds the bias
  block — one row, cast to its own shape and repeated over the rows — and, for a rectified layer, takes the maximum
  with a repeated zero. Entry by entry that is a layer of LibLayers.lean whose biases are the row's entries.
-/
import proofs.«157118_g84026740179090_cont_9to1_m_1088_18_alg».proof.Proof.LibPlainDot
import proofs.«157118_g84026740179090_cont_9to1_m_1088_18_alg».proof.Proof.LibLayers
import Idealize.ShloMosaic.Lib.ValueLayout
import Idealize.ShloMosaic.Lib.Pipeline.Value

noncomputable section

namespace Cert.LibBlockLayer

open Idealize.ShloMosaic Idealize.ShloMosaic.ValueIdx Cert.LibLayers
open scoped BigOperators

/-- The entries of a one-row array as a function of the column. -/
abbrev rowAt {N : ℕ} (r : (⟨2, ![1, N]⟩ : Shape).Idx → EReal) : Fin N → EReal := fun q => r (ix2 (0 : Fin 1) q)

variable {M K N : ℕ} (d : DotDims ⟨2, ![M, K]⟩ ⟨2, ![K, N]⟩ ⟨2, ![M, N]⟩)

/-- The product into a zero accumulator plus the repeated bias row is the layer before its activation. -/
theorem blockDense {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (FloatOps.matmul d prec l W (constant ⟨2, ![M, N]⟩ .f32 0x00000000#32))
        (broadcastTo ⟨2, ![M, N]⟩ (shapeCast ⟨2, ![1, N]⟩ r hc) hb)
      = dense l W (rowAt r) := by
  funext j
  obtain ⟨p, q, rfl⟩ : ∃ (p : Fin M) (q : Fin N), j = ix2 p q := ⟨j 0, j 1, eq_ix2 j⟩
  rw [addf_apply, Cert.LibPlainDot.matmul_plain_apply d hlc hrc hlb hrb hln hrn, broadcastTo_1b_ab_apply, shapeCast_self]
  rfl

/-- The same followed by the maximum with a repeated zero is the rectified layer. -/
theorem blockDense_relu {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    maximumf (addf (FloatOps.matmul d prec l W (constant ⟨2, ![M, N]⟩ .f32 0x00000000#32))
        (broadcastTo ⟨2, ![M, N]⟩ (shapeCast ⟨2, ![1, N]⟩ r hc) hb))
      (broadcast ⟨2, ![M, N]⟩ (Scalar.ofBits (F := Ideal) .f32 0x00000000#32))
      = relu (dense l W (rowAt r)) := by
  rw [blockDense d hlc hrc hlb hrb hln hrn]
  rfl

/-- A layer read on a tile: when the tile's rows, columns and bias entries are the arrays' at the tile's place, the
    tile's layer at a local index is the arrays' layer at the index's place. -/
theorem dense_tile {M' N' : ℕ} (L : (⟨2, ![M', K]⟩ : Shape).Idx → EReal) (W' : (⟨2, ![K, N']⟩ : Shape).Idx → EReal)
    (B : (⟨2, ![1, N']⟩ : Shape).Idx → EReal)
    (l : (⟨2, ![M, K]⟩ : Shape).Idx → EReal) (w : (⟨2, ![K, N]⟩ : Shape).Idx → EReal) (b : (⟨2, ![1, N]⟩ : Shape).Idx → EReal)
    (y : (⟨2, ![M, N]⟩ : Shape).Idx) (e : (⟨2, ![M', N']⟩ : Shape).Idx)
    (hl : ∀ k : Fin K, l (ix2 (y 0) k) = L (ix2 (e 0) k))
    (hw : ∀ k : Fin K, w (ix2 k (y 1)) = W' (ix2 k (e 1)))
    (hb : b (ix2 (0 : Fin 1) (y 1)) = B (ix2 (0 : Fin 1) (e 1))) :
    dense l w (rowAt b) y = dense L W' (rowAt B) e := by
  show (∑ k : Fin K, l (ix2 (y 0) k) * w (ix2 k (y 1))) + b (ix2 (0 : Fin 1) (y 1))
    = (∑ k : Fin K, L (ix2 (e 0) k) * W' (ix2 k (e 1))) + B (ix2 (0 : Fin 1) (e 1))
  rw [hb]
  exact congrArg (· + B (ix2 (0 : Fin 1) (e 1))) (Finset.sum_congr rfl fun k _ => by rw [hl k, hw k])

end Cert.LibBlockLayer

end
-- ==== Proof.Stored.lean ====
/-
  What each of the three kernel bodies stores, as a function of the blocks it loads.

  A change of float format is the identity on the extended reals and a cast of a block to its own shape changes
  nothing, so the first two bodies store the rectified layer of their three blocks and the third stores the layer
  without the rectifier.
-/
import proofs.«157118_g84026740179090_cont_9to1_m_1088_18_alg».proof.Proof.Gen.KernelIdeal.Skeleton
import proofs.«157118_g84026740179090_cont_9to1_m_1088_18_alg».proof.Proof.LibBlockLayer

noncomputable section

namespace Cert.KernelIdeal.Stored

open Idealize.ShloMosaic Idealize.ShloMosaic.ValueIdx Cert.LibLayers Cert.LibBlockLayer
open Cert.KernelIdeal Cert.KernelIdeal.Gen

/-- The first body stores the rectified layer of its input, weight and bias blocks. -/
theorem stored0 (x0 : Vec Ideal S1024x1024 .f32) (x1 : Vec Ideal S1024x4096 .f32) (x2 : Vec Ideal S1x4096 .f32) :
    k0_pay1 (F := Ideal) x0 x1 x2 = relu (dense x0 x1 (rowAt x2)) := by
  unfold k0_pay1
  exact blockDense_relu dot_S1024x1024_S1024x4096_S1024x4096_1_0_0_1_n_n rfl rfl rfl rfl rfl rfl none x0 x1 x2 _ _

/-- The second body stores the rectified layer of its blocks. -/
theorem stored1 (x0 : Vec Ideal S1024x4096 .bf16) (x1 : Vec Ideal S4096x1024 .f32) (x2 : Vec Ideal S1x1024 .f32) :
    k1_pay1 (F := Ideal) x0 x1 x2 = relu (dense x0 x1 (rowAt x2)) := by
  unfold k1_pay1
  rw [shapeCast_self]
  exact blockDense_relu dot_S1024x4096_S4096x1024_S1024x1024_1_0_0_1_n_n rfl rfl rfl rfl rfl rfl none x0 x1 x2 _ _

/-- The third body stores the layer of its blocks, not rectified. -/
theorem stored2 (x0 : Vec Ideal S1024x4096 .bf16) (x1 : Vec Ideal S4096x1000 .f32) (x2 : Vec Ideal S1x1000 .f32) :
    k2_pay1 (F := Ideal) x0 x1 x2 = dense x0 x1 (rowAt x2) := by
  unfold k2_pay1
  rw [shapeCast_self]
  exact blockDense dot_S1024x4096_S4096x1000_S1024x1000_1_0_0_1_n_n rfl rfl rfl rfl rfl rfl none x0 x1 x2 _ _

end Cert.KernelIdeal.Stored

end
-- ==== Proof.Region0.lean ====
/-
  The first layer's array.

  The first pallas_call cuts the 4096 batch rows into four blocks of 1024 and takes the input's 1024 columns, the
  4096 weight columns and the bias row whole. At grid point t the body sees rows [1024·m, 1024·m + 1024) of the input,
  the whole weight matrix and the whole bias row, and writes back rows [1024·m, 1024·m + 1024) of the result: entry
  (r, q) of that block depends on row 1024·m + r of the input only. So every written block is the corresponding block
  of ONE array, the rectified layer of the arrays the region is entered with, and the four blocks tile the result.
-/
import proofs.«157118_g84026740179090_cont_9to1_m_1088_18_alg».proof.Proof.Gen.KernelIdeal.Frame
import proofs.«157118_g84026740179090_cont_9to1_m_1088_18_alg».proof.Proof.Stored

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLayers Cert.LibBlockLayer

variable (V : (c : Dev nD) → (b : Ref sig .tc) → Buf (Elt Ideal) ((c : Thread nD τ).loc b))

theorem zeros : (![0, 0] : Fin 2 → Nat) = fun _ => 0 := funext fun a => by fin_cases a <;> rfl

/-- The rectified layer of the input, the first weight matrix and the first bias row as the region finds them. -/
abbrev whole (c : Dev nD) : S4096x4096.Idx → EReal :=
  relu (dense (V c main_arg0) (V c main_arg1) (rowAt (V c main_v0)))

/-- The block indices over the grid: the input's row block is the result's, its column block the only one; the
    weight's row block is the only one and its column block the result's; the same for the bias row. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, _)

/-- Every block of the result is some grid point's. -/
theorem idx_onto : ∀ (q0 : Fin 4) (q1 : Fin 1), ∃ t : Fin cfg0.N, win0_3.index t = ![q0.val, q1.val] :=
  (by decide +kernel : ∀ (q0 : Fin 4) (q1 : Fin 1), ∃ t : Fin grid0.N, win0_3.index t = ![q0.val, q1.val])

/-- What grid point t writes back is block t of the layer. -/
theorem flushed_eq (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero zeros]
  simp only [View.ld_unit_zero (S := S1024x1024) zeros, View.ld_unit_zero (S := S1024x4096) zeros,
    View.ld_unit_zero (S := S1x4096) zeros]
  rw [Stored.stored0]
  obtain ⟨e0, e1, e2, e3, e4, e5⟩ := idx_facts t
  funext y
  show relu (dense (iblk0 V c 0 t) (iblk0 V c 1 t) (rowAt (iblk0 V c 2 t))) y
    = whole V c (((cfg0.win 3).blk t).view.emb y)
  refine congrArg (fun z => max z (Ideal.ofBits .f32 0x00000000#32)) ?_
  refine dense_tile (M := 1024) (K := 1024) (N := 4096) (M' := 4096) (N' := 4096)
    (V c main_arg0) (V c main_arg1) (V c main_v0) (iblk0 V c 0 t) (iblk0 V c 1 t) (iblk0 V c 2 t) y
    (((cfg0.win 3).blk t).view.emb y) (fun k => ?_) (fun k => ?_) ?_
  · show V c main_arg0 (((cfg0.win 0).blk t).view.emb (ix2 (y 0) k))
      = V c main_arg0 (ix2 ((((cfg0.win 3).blk t).view.emb y) 0) k)
    refine congrArg (V c main_arg0) (funext fun a => Fin.ext ?_)
    match a with
    | ⟨0, _⟩ =>
      show win0_0.index t (0 : Fin 2) * 1024 + 1 * (y 0).val = win0_3.index t (0 : Fin 2) * 1024 + 1 * (y 0).val
      omega
    | ⟨1, _⟩ =>
      show win0_0.index t (1 : Fin 2) * 1024 + 1 * k.val = k.val
      omega
  · show V c main_arg1 (((cfg0.win 1).blk t).view.emb (ix2 k (y 1)))
      = V c main_arg1 (ix2 k ((((cfg0.win 3).blk t).view.emb y) 1))
    refine congrArg (V c main_arg1) (funext fun a => Fin.ext ?_)
    match a with
    | ⟨0, _⟩ =>
      show win0_1.index t (0 : Fin 2) * 1024 + 1 * k.val = k.val
      omega
    | ⟨1, _⟩ =>
      show win0_1.index t (1 : Fin 2) * 4096 + 1 * (y 1).val = win0_3.index t (1 : Fin 2) * 4096 + 1 * (y 1).val
      omega
  · show V c main_v0 (((cfg0.win 2).blk t).view.emb (ix2 (0 : Fin 1) (y 1)))
      = V c main_v0 (ix2 (0 : Fin 1) ((((cfg0.win 3).blk t).view.emb y) 1))
    refine congrArg (V c main_v0) (funext fun a => Fin.ext ?_)
    match a with
    | ⟨0, _⟩ =>
      show win0_2.index t (0 : Fin 2) * 1 + 1 * 0 = 0
      omega
    | ⟨1, _⟩ =>
      show win0_2.index t (1 : Fin 2) * 4096 + 1 * (y 1).val = win0_3.index t (1 : Fin 2) * 4096 + 1 * (y 1).val
      omega

/-- An index is in grid point t's block iff each coordinate is in the block's range on its axis. -/
theorem mem_blk (t : Fin cfg0.N) (i : S4096x4096.Idx) :
    i ∈ ((cfg0.win 3).blk t).view.set ↔ ∀ a : Fin 2, win0_3.index t a * S1024x4096.size a ≤ (i a).val
      ∧ (i a).val < win0_3.index t a * S1024x4096.size a + S1024x4096.size a := by
  show i ∈ ((View.whole main_v1).slice (win0_3.rect t)).set ↔ _
  rw [View.set_slice_whole, Rect.mem_set_unit]
  exact Iff.rfl

/-- The blocks tile the result: row r lies in the block of the grid point with row block r / 1024. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 4096, by omega⟩
  have q0 : win0_3.index t (0 : Fin 2) = (i 0).val / 1024 := congrFun ht 0
  have q1 : win0_3.index t (1 : Fin 2) = (i 1).val / 4096 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 4096 ≤ (i 1).val ∧ (i 1).val < win0_3.index t (1 : Fin 2) * 4096 + 4096
    omega

/-- The region leaves the rectified first layer in its result array. -/
theorem arr_eq (c : Dev nD) : (dat0 V c).arrAt 3 cfg0.N = whole V c :=
  (dat0 V c).arrAt_eq_of_cover 3 (whole V c) (fun t _ => flushed_eq V c t) (cover)

end Cert.KernelIdeal.Region0

end
-- ==== Proof.Region1.lean ====
/-
  The second layer's array.

  The second pallas_call cuts the 4096 rows and the 4096 result columns into blocks of 1024, sixteen grid points, and
  takes the 4096-deep contraction whole. At a grid point with row block m and column block n the body sees rows
  [1024·m, 1024·m + 1024) of the first layer's activations, columns [1024·n, 1024·n + 1024) of the weight matrix and of
  the bias row, and writes back the (m, n) block of the result. Entry (r, q) of that block is the rectified layer's
  entry (1024·m + r, 1024·n + q), so every written block is the corresponding block of ONE array and the sixteen
  blocks tile the result.
-/
import proofs.«157118_g84026740179090_cont_9to1_m_1088_18_alg».proof.Proof.Gen.KernelIdeal.Frame
import proofs.«157118_g84026740179090_cont_9to1_m_1088_18_alg».proof.Proof.Stored

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLayers Cert.LibBlockLayer

variable (V : (c : Dev nD) → (b : Ref sig .tc) → Buf (Elt Ideal) ((c : Thread nD τ).loc b))

theorem zeros : (![0, 0] : Fin 2 → Nat) = fun _ => 0 := funext fun a => by fin_cases a <;> rfl

/-- The rectified layer of the first layer's activations, the second weight matrix and the second bias row as the
    region finds them. -/
abbrev whole (c : Dev nD) : S4096x4096.Idx → EReal :=
  relu (dense (V c main_v1) (V c main_arg3) (rowAt (V c main_v2)))

/-- The block indices over the grid: the activations' row block is the result's and their column block the only one;
    the weight's row block is the only one and its column block the result's; the same for the bias row. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2) :=
  (by decide +kernel : ∀ t : Fin grid1.N, _)

/-- Every block of the result is some grid point's. -/
theorem idx_onto : ∀ (q0 : Fin 4) (q1 : Fin 4), ∃ t : Fin cfg1.N, win1_3.index t = ![q0.val, q1.val] :=
  (by decide +kernel : ∀ (q0 : Fin 4) (q1 : Fin 4), ∃ t : Fin grid1.N, win1_3.index t = ![q0.val, q1.val])

/-- What grid point t writes back is block t of the layer. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero zeros]
  simp only [View.ld_unit_zero (S := S1024x4096) zeros, View.ld_unit_zero (S := S4096x1024) zeros,
    View.ld_unit_zero (S := S1x1024) zeros]
  rw [Stored.stored1]
  obtain ⟨e0, e1, e2, e3, e4, e5⟩ := idx_facts t
  funext y
  show relu (dense (iblk1 V c 0 t) (iblk1 V c 1 t) (rowAt (iblk1 V c 2 t))) y
    = whole V c (((cfg1.win 3).blk t).view.emb y)
  refine congrArg (fun z => max z (Ideal.ofBits .f32 0x00000000#32)) ?_
  refine dense_tile (M := 1024) (K := 4096) (N := 1024) (M' := 4096) (N' := 4096)
    (V c main_v1) (V c main_arg3) (V c main_v2) (iblk1 V c 0 t) (iblk1 V c 1 t) (iblk1 V c 2 t) y
    (((cfg1.win 3).blk t).view.emb y) (fun k => ?_) (fun k => ?_) ?_
  · show V c main_v1 (((cfg1.win 0).blk t).view.emb (ix2 (y 0) k))
      = V c main_v1 (ix2 ((((cfg1.win 3).blk t).view.emb y) 0) k)
    refine congrArg (V c main_v1) (funext fun a => Fin.ext ?_)
    match a with
    | ⟨0, _⟩ =>
      show win1_0.index t (0 : Fin 2) * 1024 + 1 * (y 0).val = win1_3.index t (0 : Fin 2) * 1024 + 1 * (y 0).val
      omega
    | ⟨1, _⟩ =>
      show win1_0.index t (1 : Fin 2) * 4096 + 1 * k.val = k.val
      omega
  · show V c main_arg3 (((cfg1.win 1).blk t).view.emb (ix2 k (y 1)))
      = V c main_arg3 (ix2 k ((((cfg1.win 3).blk t).view.emb y) 1))
    refine congrArg (V c main_arg3) (funext fun a => Fin.ext ?_)
    match a with
    | ⟨0, _⟩ =>
      show win1_1.index t (0 : Fin 2) * 4096 + 1 * k.val = k.val
      omega
    | ⟨1, _⟩ =>
      show win1_1.index t (1 : Fin 2) * 1024 + 1 * (y 1).val = win1_3.index t (1 : Fin 2) * 1024 + 1 * (y 1).val
      omega
  · show V c main_v2 (((cfg1.win 2).blk t).view.emb (ix2 (0 : Fin 1) (y 1)))
      = V c main_v2 (ix2 (0 : Fin 1) ((((cfg1.win 3).blk t).view.emb y) 1))
    refine congrArg (V c main_v2) (funext fun a => Fin.ext ?_)
    match a with
    | ⟨0, _⟩ =>
      show win1_2.index t (0 : Fin 2) * 1 + 1 * 0 = 0
      omega
    | ⟨1, _⟩ =>
      show win1_2.index t (1 : Fin 2) * 1024 + 1 * (y 1).val = win1_3.index t (1 : Fin 2) * 1024 + 1 * (y 1).val
      omega

/-- An index is in grid point t's block iff each coordinate is in the block's range on its axis. -/
theorem mem_blk (t : Fin cfg1.N) (i : S4096x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v3).slice (win1_3.rect t)).set ↔ _
  rw [View.set_slice_whole, Rect.mem_set_unit]
  exact Iff.rfl

/-- The blocks tile the result: entry (r, q) lies in the block of the grid point with row block r / 1024 and column
    block q / 1024. -/
theorem cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- The region leaves the rectified second layer in its result array. -/
theorem arr_eq (c : Dev nD) : (dat1 V c).arrAt 3 cfg1.N = whole V c :=
  (dat1 V c).arrAt_eq_of_cover 3 (whole V c) (fun t _ => flushed_eq V c t) (cover)

end Cert.KernelIdeal.Region1

end
-- ==== Proof.Region2.lean ====
/-
  The third layer's array.

  The third pallas_call cuts the 4096 rows into four blocks of 1024 and takes the 4096-deep contraction, the 1000
  result columns and the bias row whole. At the grid point with row block m the body sees rows [1024·m, 1024·m + 1024) of
  the second layer's activations, the whole weight matrix and the whole bias row, and writes back rows
  [1024·m, 1024·m + 1024) of the result, with no rectifier. Every written block is the corresponding block of ONE array,
  the layer of the arrays the region is entered with, and the four blocks tile the result.
-/
import proofs.«157118_g84026740179090_cont_9to1_m_1088_18_alg».proof.Proof.Gen.KernelIdeal.Frame
import proofs.«157118_g84026740179090_cont_9to1_m_1088_18_alg».proof.Proof.Stored

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLayers Cert.LibBlockLayer

variable (V : (c : Dev nD) → (b : Ref sig .tc) → Buf (Elt Ideal) ((c : Thread nD τ).loc b))

theorem zeros : (![0, 0] : Fin 2 → Nat) = fun _ => 0 := funext fun a => by fin_cases a <;> rfl

/-- The layer of the second layer's activations, the third weight matrix and the third bias row as the region finds
    them. -/
abbrev whole (c : Dev nD) : S4096x1000.Idx → EReal :=
  dense (V c main_v3) (V c main_arg5) (rowAt (V c main_v4))

/-- The block indices over the grid: the activations' row block is the result's and their column block the only one;
    the weight's row block is the only one and its column block the result's; the same for the bias row. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2) :=
  (by decide +kernel : ∀ t : Fin grid2.N, _)

/-- Every block of the result is some grid point's. -/
theorem idx_onto : ∀ (q0 : Fin 4) (q1 : Fin 1), ∃ t : Fin cfg2.N, win2_3.index t = ![q0.val, q1.val] :=
  (by decide +kernel : ∀ (q0 : Fin 4) (q1 : Fin 1), ∃ t : Fin grid2.N, win2_3.index t = ![q0.val, q1.val])

/-- What grid point t writes back is block t of the layer. -/
theorem flushed_eq (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero zeros]
  simp only [View.ld_unit_zero (S := S1024x4096) zeros, View.ld_unit_zero (S := S4096x1000) zeros,
    View.ld_unit_zero (S := S1x1000) zeros]
  rw [Stored.stored2]
  obtain ⟨e0, e1, e2, e3, e4, e5⟩ := idx_facts t
  funext y
  show dense (iblk2 V c 0 t) (iblk2 V c 1 t) (rowAt (iblk2 V c 2 t)) y
    = whole V c (((cfg2.win 3).blk t).view.emb y)
  refine dense_tile (M := 1024) (K := 4096) (N := 1000) (M' := 4096) (N' := 1000)
    (V c main_v3) (V c main_arg5) (V c main_v4) (iblk2 V c 0 t) (iblk2 V c 1 t) (iblk2 V c 2 t) y
    (((cfg2.win 3).blk t).view.emb y) (fun k => ?_) (fun k => ?_) ?_
  · show V c main_v3 (((cfg2.win 0).blk t).view.emb (ix2 (y 0) k))
      = V c main_v3 (ix2 ((((cfg2.win 3).blk t).view.emb y) 0) k)
    refine congrArg (V c main_v3) (funext fun a => Fin.ext ?_)
    match a with
    | ⟨0, _⟩ =>
      show win2_0.index t (0 : Fin 2) * 1024 + 1 * (y 0).val = win2_3.index t (0 : Fin 2) * 1024 + 1 * (y 0).val
      omega
    | ⟨1, _⟩ =>
      show win2_0.index t (1 : Fin 2) * 4096 + 1 * k.val = k.val
      omega
  · show V c main_arg5 (((cfg2.win 1).blk t).view.emb (ix2 k (y 1)))
      = V c main_arg5 (ix2 k ((((cfg2.win 3).blk t).view.emb y) 1))
    refine congrArg (V c main_arg5) (funext fun a => Fin.ext ?_)
    match a with
    | ⟨0, _⟩ =>
      show win2_1.index t (0 : Fin 2) * 4096 + 1 * k.val = k.val
      omega
    | ⟨1, _⟩ =>
      show win2_1.index t (1 : Fin 2) * 1000 + 1 * (y 1).val = win2_3.index t (1 : Fin 2) * 1000 + 1 * (y 1).val
      omega
  · show V c main_v4 (((cfg2.win 2).blk t).view.emb (ix2 (0 : Fin 1) (y 1)))
      = V c main_v4 (ix2 (0 : Fin 1) ((((cfg2.win 3).blk t).view.emb y) 1))
    refine congrArg (V c main_v4) (funext fun a => Fin.ext ?_)
    match a with
    | ⟨0, _⟩ =>
      show win2_2.index t (0 : Fin 2) * 1 + 1 * 0 = 0
      omega
    | ⟨1, _⟩ =>
      show win2_2.index t (1 : Fin 2) * 1000 + 1 * (y 1).val = win2_3.index t (1 : Fin 2) * 1000 + 1 * (y 1).val
      omega

/-- An index is in grid point t's block iff each coordinate is in the block's range on its axis. -/
theorem mem_blk (t : Fin cfg2.N) (i : S4096x1000.Idx) :
    i ∈ ((cfg2.win 3).blk t).view.set ↔ ∀ a : Fin 2, win2_3.index t a * S1024x1000.size a ≤ (i a).val
      ∧ (i a).val < win2_3.index t a * S1024x1000.size a + S1024x1000.size a := by
  show i ∈ ((View.whole main_v5).slice (win2_3.rect t)).set ↔ _
  rw [View.set_slice_whole, Rect.mem_set_unit]
  exact Iff.rfl

/-- The blocks tile the result: row r lies in the block of the grid point with row block r / 1024. -/
theorem cover (i : S4096x1000.Idx) :
    ∃ t : Fin cfg2.N, (cfg2.win 3).flush t = true ∧ i ∈ ((cfg2.win 3).blk t).view.set := by
  have hi0 : (i 0).val < 4096 := (i 0).isLt
  have hi1 : (i 1).val < 1000 := (i 1).isLt
  obtain ⟨t, ht⟩ := idx_onto ⟨(i 0).val / 1024, by omega⟩ ⟨(i 1).val / 1000, by omega⟩
  have q0 : win2_3.index t (0 : Fin 2) = (i 0).val / 1024 := congrFun ht 0
  have q1 : win2_3.index t (1 : Fin 2) = (i 1).val / 1000 := congrFun ht 1
  refine ⟨t, flush2_3 t, ?_⟩
  rw [mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1000 ≤ (i 1).val ∧ (i 1).val < win2_3.index t (1 : Fin 2) * 1000 + 1000
    omega

/-- The region leaves the third layer in its result array. -/
theorem arr_eq (c : Dev nD) : (dat2 V c).arrAt 3 cfg2.N = whole V c :=
  (dat2 V c).arrAt_eq_of_cover 3 (whole V c) (fun t _ => flushed_eq V c t) (cover)

end Cert.KernelIdeal.Region2

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.KernelRun.lean ====
/-
  The kernel's run, its result named.

  @main is three pallas_calls, each behind a host reshape that lays the layer's bias vector out as a row. Walking
  the buffer contents from the return back to the launch: the result buffer holds what the third region's four
  write-backs leave, the third layer of the arrays that region is entered with; of those, the activations are what the
  second region's sixteen write-backs leave, the weight matrix is the launch's (nothing writes an argument), and the
  bias row is the reshape of the launch's bias vector, whose entry (0, q) is the vector's entry q; and likewise one
  layer further back. So the result buffer ends at the three-layer perceptron of the seven arguments.
-/
import proofs.«157118_g84026740179090_cont_9to1_m_1088_18_alg».proof.Proof.Gen.KernelIdeal.Frame
import proofs.«157118_g84026740179090_cont_9to1_m_1088_18_alg».proof.Proof.Region0
import proofs.«157118_g84026740179090_cont_9to1_m_1088_18_alg».proof.Proof.Region1
import proofs.«157118_g84026740179090_cont_9to1_m_1088_18_alg».proof.Proof.Region2
import proofs.«157118_g84026740179090_cont_9to1_m_1088_18_alg».proof.Proof.LibRow

noncomputable section

namespace Cert.KernelIdeal.Whole

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibLayers Cert.LibBlockLayer
open Idealize.ShloMosaic.StableHlo (after_cons after_nil reshape_result reshape_result_ne)

local notation "𝕄" => MT nD τ sig Unit (Elt Ideal) ℕ (UR sig nD τ) ℕ

variable (m : (ℓ : Loc nD τ sig) → Buf (Elt Ideal) ℓ) (ρ : Dev nD → PrngReg)

/-! ## What the host reshapes leave alone, and what they write -/

/-- The first reshape writes the first bias row only. -/
theorem W1_step (c : Dev nD) {r : Ref sig .tc} (h : r ≠ main_v0) :
    W1 m ρ c (Proc.devRef .tc r) = W0 m ρ c (Proc.devRef .tc r) :=
  StableHlo.after_of_forall_not_mem (b := Proc.devRef .tc r) hostOps0 (W0 m ρ c) (by
    intro op hop
    rw [List.mem_singleton] at hop
    subst hop
    rw [StableHlo.reshape_writes, Finset.mem_singleton]
    exact StableHlo.devRef_ne_of_ne h)

/-- The second reshape writes the second bias row only. -/
theorem W3_step (c : Dev nD) {r : Ref sig .tc} (h : r ≠ main_v2) :
    W3 m ρ c (Proc.devRef .tc r) = W2 m ρ c (Proc.devRef .tc r) :=
  StableHlo.after_of_forall_not_mem (b := Proc.devRef .tc r) hostOps1 (W2 m ρ c) (by
    intro op hop
    rw [List.mem_singleton] at hop
    subst hop
    rw [StableHlo.reshape_writes, Finset.mem_singleton]
    exact StableHlo.devRef_ne_of_ne h)

/-- The third reshape writes the third bias row only. -/
theorem W5_step (c : Dev nD) {r : Ref sig .tc} (h : r ≠ main_v4) :
    W5 m ρ c (Proc.devRef .tc r) = W4 m ρ c (Proc.devRef .tc r) :=
  StableHlo.after_of_forall_not_mem (b := Proc.devRef .tc r) hostOps2 (W4 m ρ c) (by
    intro op hop
    rw [List.mem_singleton] at hop
    subst hop
    rw [StableHlo.reshape_writes, Finset.mem_singleton]
    exact StableHlo.devRef_ne_of_ne h)

/-- The first bias row is the first bias vector, entry (0, q) its entry q. -/
theorem row0 (c : Dev nD) : rowAt (V1 m ρ c main_v0) = (fun q => m ((c : Thread nD τ).loc main_arg2) (ix1 q)) := by
  have e : (V1 m ρ c main_v0 : S1x4096.Idx → EReal)
      = shapeCast S1x4096 (W0 m ρ c (Proc.devRef .tc main_arg2)) Gen.shapeCasts_S4096_S1x4096 := by
    show StableHlo.after hostOps0 (W0 m ρ c) (Proc.devRef .tc main_v0) = _
    after_results <;> rfl
  funext q
  show V1 m ρ c main_v0 (ix2 (0 : Fin 1) q) = _
  rw [e]
  exact Cert.LibRow.row_apply _ _ q

/-- The second bias row is the second bias vector. -/
theorem row1 (c : Dev nD) : rowAt (V3 m ρ c main_v2) = (fun q => m ((c : Thread nD τ).loc main_arg4) (ix1 q)) := by
  have e : (V3 m ρ c main_v2 : S1x4096.Idx → EReal)
      = shapeCast S1x4096 (W2 m ρ c (Proc.devRef .tc main_arg4)) Gen.shapeCasts_S4096_S1x4096 := by
    show StableHlo.after hostOps1 (W2 m ρ c) (Proc.devRef .tc main_v2) = _
    after_results <;> rfl
  have k : W2 m ρ c (Proc.devRef .tc main_arg4) = m ((c : Thread nD τ).loc main_arg4) :=
    (W2_of_ne m ρ c main_arg4 (by decide)).trans (W1_step m ρ c (by decide))
  funext q
  show V3 m ρ c main_v2 (ix2 (0 : Fin 1) q) = _
  rw [e, k]
  exact Cert.LibRow.row_apply _ _ q

/-- The third bias row is the third bias vector. -/
theorem row2 (c : Dev nD) : rowAt (V5 m ρ c main_v4) = (fun q => m ((c : Thread nD τ).loc main_arg6) (ix1 q)) := by
  have e : (V5 m ρ c main_v4 : S1x1000.Idx → EReal)
      = shapeCast S1x1000 (W4 m ρ c (Proc.devRef .tc main_arg6)) Gen.shapeCasts_S1000_S1x1000 := by
    show StableHlo.after hostOps2 (W4 m ρ c) (Proc.devRef .tc main_v4) = _
    after_results <;> rfl
  have k : W4 m ρ c (Proc.devRef .tc main_arg6) = m ((c : Thread nD τ).loc main_arg6) :=
    (W4_of_ne m ρ c main_arg6 (by decide)).trans ((W3_step m ρ c (by decide)).trans
      ((W2_of_ne m ρ c main_arg6 (by decide)).trans (W1_step m ρ c (by decide))))
  funext q
  show V5 m ρ c main_v4 (ix2 (0 : Fin 1) q) = _
  rw [e, k]
  exact Cert.LibRow.row_apply _ _ q

/-! ## The arguments as each region finds them -/

theorem x_at1 (c : Dev nD) : V1 m ρ c main_arg0 = m ((c : Thread nD τ).loc main_arg0) := W1_step m ρ c (by decide)
theorem w1_at1 (c : Dev nD) : V1 m ρ c main_arg1 = m ((c : Thread nD τ).loc main_arg1) := W1_step m ρ c (by decide)
theorem w2_at3 (c : Dev nD) : V3 m ρ c main_arg3 = m ((c : Thread nD τ).loc main_arg3) :=
  (W3_step m ρ c (by decide)).trans ((W2_of_ne m ρ c main_arg3 (by decide)).trans (W1_step m ρ c (by decide)))
theorem w3_at5 (c : Dev nD) : V5 m ρ c main_arg5 = m ((c : Thread nD τ).loc main_arg5) :=
  (W5_step m ρ c (by decide)).trans ((W4_of_ne m ρ c main_arg5 (by decide)).trans ((W3_step m ρ c (by decide)).trans
    ((W2_of_ne m ρ c main_arg5 (by decide)).trans (W1_step m ρ c (by decide)))))

/-! ## The three layers, back to the launch -/

/-- The first region's result array is the rectified first layer of the launch's input, weights and biases. -/
theorem layer1 (c : Dev nD) : (dat0 (V1 m ρ) c).arrAt 3 cfg0.N = relu (dense (m ((c : Thread nD τ).loc main_arg0)) (m ((c : Thread nD τ).loc main_arg1)) (fun q => m ((c : Thread nD τ).loc main_arg2) (ix1 q))) := by
  rw [Region0.arr_eq (V1 m ρ) c]
  show relu (dense (V1 m ρ c main_arg0) (V1 m ρ c main_arg1) (rowAt (V1 m ρ c main_v0))) = _
  rw [x_at1 m ρ c, w1_at1 m ρ c, row0 m ρ c]

/-- The activations the second region is entered with are the first region's result array. -/
theorem act1 (c : Dev nD) : V3 m ρ c main_v1 = relu (dense (m ((c : Thread nD τ).loc main_arg0)) (m ((c : Thread nD τ).loc main_arg1)) (fun q => m ((c : Thread nD τ).loc main_arg2) (ix1 q))) :=
  (W3_step m ρ c (by decide)).trans ((W2_arr m ρ c 3).trans (layer1 m ρ c))

/-- The second region's result array is the rectified second layer of the first. -/
theorem layer2 (c : Dev nD) : (dat1 (V3 m ρ) c).arrAt 3 cfg1.N = relu (dense (relu (dense (m ((c : Thread nD τ).loc main_arg0)) (m ((c : Thread nD τ).loc main_arg1)) (fun q => m ((c : Thread nD τ).loc main_arg2) (ix1 q)))) (m ((c : Thread nD τ).loc main_arg3)) (fun q => m ((c : Thread nD τ).loc main_arg4) (ix1 q))) := by
  rw [Region1.arr_eq (V3 m ρ) c]
  show relu (dense (V3 m ρ c main_v1) (V3 m ρ c main_arg3) (rowAt (V3 m ρ c main_v2))) = _
  rw [act1 m ρ c, w2_at3 m ρ c, row1 m ρ c]

/-- The activations the third region is entered with are the second region's result array. -/
theorem act2 (c : Dev nD) : V5 m ρ c main_v3 = relu (dense (relu (dense (m ((c : Thread nD τ).loc main_arg0)) (m ((c : Thread nD τ).loc main_arg1)) (fun q => m ((c : Thread nD τ).loc main_arg2) (ix1 q)))) (m ((c : Thread nD τ).loc main_arg3)) (fun q => m ((c : Thread nD τ).loc main_arg4) (ix1 q))) :=
  (W5_step m ρ c (by decide)).trans ((W4_arr m ρ c 3).trans (layer2 m ρ c))

/-- The result buffer at the return is the perceptron of the seven arguments. -/
theorem result_eq (c : Dev nD) : W6 m ρ c (Proc.devRef .tc main_v5)
    = mlp (m ((c : Thread nD τ).loc main_arg0)) (m ((c : Thread nD τ).loc main_arg1)) (fun q => m ((c : Thread nD τ).loc main_arg2) (ix1 q)) (m ((c : Thread nD τ).loc main_arg3)) (fun q => m ((c : Thread nD τ).loc main_arg4) (ix1 q)) (m ((c : Thread nD τ).loc main_arg5)) (fun q => m ((c : Thread nD τ).loc main_arg6) (ix1 q)) := by
  refine (W6_arr m ρ c 3).trans ?_
  rw [Region2.arr_eq (V5 m ρ) c]
  show dense (V5 m ρ c main_v3) (V5 m ρ c main_arg5) (rowAt (V5 m ρ c main_v4)) = _
  rw [act2 m ρ c, w3_at5 m ρ c, row2 m ρ c]
  rfl

/-! ## The run -/

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched: the launch over @main's six segments, the last thread state read against
    the final state at the result buffer as at each argument. -/
theorem run_boundary : θ_run defs (onTc (τ := τ) (main (F := Ideal))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-- The same with the result buffer at the perceptron of the arguments. -/
theorem run : θ_run defs (onTc (τ := τ) (main (F := Ideal))) ⟨m, fun _ => 0, ρ⟩ (fun r => ∀ c : Dev nD,
      r.2.mem ((c.tc : Thread nD τ).loc main_v5)
        = mlp (m ((c : Thread nD τ).loc main_arg0)) (m ((c : Thread nD τ).loc main_arg1)) (fun q => m ((c : Thread nD τ).loc main_arg2) (ix1 q)) (m ((c : Thread nD τ).loc main_arg3)) (fun q => m ((c : Thread nD τ).loc main_arg4) (ix1 q)) (m ((c : Thread nD τ).loc main_arg5)) (fun q => m ((c : Thread nD τ).loc main_arg6) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_boundary m ρ)

end Cert.KernelIdeal.Whole

end
-- ==== Proof.lean ====
/-
  A three-layer perceptron, 1024 → 4096 → 4096 → 1000 over 4096 rows, as three tiled matrix-product kernels against
  three host matrix products.

  The kernel runs one pallas_call per layer. Each body multiplies a block of rows of the activations by a block of
  columns of the weight matrix over the WHOLE contraction axis, into a zero accumulator, adds the bias row, and in
  the first two layers takes the maximum with zero; the activations between layers are kept in a narrower float
  format. On the extended reals a change of float format is the identity, so entry (p, q) of each layer is
  max (∑ₖ h (p, k) · W (k, q) + b q) 0 — for the last layer without the maximum — whichever block the entry was
  computed in: a block's entry reads row p of the activations and column q of the weights, and the blocks of
  each layer tile its result. The reference forms the same sums of the same products with the host's matrix
  product, the bias vector repeated over the rows, and the same maximum with the same zero. The two results are
  therefore the same function of the seven arguments entry by entry, with no law that would need the entries to be
  finite: the precondition is never opened.

  Modules: LibLayers (the layer and the perceptron as functions on the extended reals), LibHostLayer and RefValue (the
  reference's composed term is the perceptron), LibBlockLayer and Stored (what each body stores, as a layer of its blocks),
  Region0 / Region1 / Region2 (each pallas_call's result array is one layer of the arrays it is entered with),
  KernelRun (the result buffer followed back through the three layers to the launch), and this file (the claims).
  The ideal pass rewrote nothing, so the idealization's statement has no conjunct to prove.
-/
import proofs.«157118_g84026740179090_cont_9to1_m_1088_18_alg».proof.Defs
import proofs.«157118_g84026740179090_cont_9to1_m_1088_18_alg».proof.Proof.Gen.Kernel
import proofs.«157118_g84026740179090_cont_9to1_m_1088_18_alg».proof.Proof.Gen.Kernel.Frame
import proofs.«157118_g84026740179090_cont_9to1_m_1088_18_alg».proof.Proof.Gen.KernelIdeal
import proofs.«157118_g84026740179090_cont_9to1_m_1088_18_alg».proof.Proof.Gen.KernelIdeal.Frame
import proofs.«157118_g84026740179090_cont_9to1_m_1088_18_alg».proof.Proof.Gen.ReferenceIdeal
import proofs.«157118_g84026740179090_cont_9to1_m_1088_18_alg».proof.Proof.Gen.ReferenceIdeal.Run
import proofs.«157118_g84026740179090_cont_9to1_m_1088_18_alg».proof.Proof.Gen.Pre_finite_inputs
import proofs.«157118_g84026740179090_cont_9to1_m_1088_18_alg».proof.Proof.RefValue
import proofs.«157118_g84026740179090_cont_9to1_m_1088_18_alg».proof.Proof.KernelRun
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the seven arguments both programs end with the perceptron of those arguments in
    their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.RefLayers.result_eq, (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
